-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 13
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S4096x1024, .bf16⟩
  | .hbm, ⟨11, _⟩ => ⟨S4096x1024, .bf16⟩
  | .hbm, ⟨12, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x4096 : Shape := ⟨2, ![1024, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S1024x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.GaussLaw.lean ====
/-
  The scalar identity behind the multi-scale Gaussian sum.

  For a squared distance `d` both programs return `∑ₐ exp (-d / (2a))` over the five bandwidths
  `a = 1/8, 1/4, 1/2, 1, 2`, that is `exp (-4d) + exp (-2d) + exp (-d) + exp (-d/2) + exp (-d/4)`.
  One side evaluates the widest term `t = exp (-d/4)` once and squares it four times
  (`t², t⁴, t⁸, t¹⁶`), adding as it goes; the other applies the exponential to each quotient
  `-d / (2a)` and adds them to a zero, narrowest bandwidth first.

  The two agree on ALL extended reals, with no finiteness assumed:
  * for a real `d`, `exp x · exp x = exp (2x)` turns the squarings into the five exponentials, and
    addition of reals is commutative and associative;
  * at `d = +∞` every exponent is `-∞`, every term is `0` on both sides;
  * at `d = -∞` every exponent is `+∞`, every term — and so each sum — is `+∞` on both sides.
-/
import Idealize.ShloMosaic.PureOps.Ideal

noncomputable section

namespace Cert.GaussSum

open Idealize.ShloMosaic

/-! ## The dyadic constants the two programs spell, as the reals they denote -/

theorem ofBits_neg_quarter : Ideal.ofBits .f32 0xBE800000#32 = ((-(1 / 4) : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_zero : Ideal.ofBits .f32 0x00000000#32 = 0 := by
  simp [Ideal.ofBits, Ideal.ieee]

/-! ## The two ways of summing the five Gaussians -/

/-- The sum by repeated squaring: `t = exp (-¼ · d)`, then `t + t² + t⁴ + t⁸ + t¹⁶`, each power the
    square of the one before, added left to right. -/
def bySquaring (d : EReal) : EReal :=
  let t1 := Ideal.exp (Ideal.ofBits .f32 0xBE800000#32 * d)
  let t2 := t1 * t1
  let t4 := t2 * t2
  let t8 := t4 * t4
  let t16 := t8 * t8
  t1 + t2 + t4 + t8 + t16

/-- The sum term by term: `0 + exp (-d / ¼) + exp (-d / ½) + exp (-d / 1) + exp (-d / 2) + exp (-d / 4)`,
    added left to right onto the zero. -/
def termByTerm (d : EReal) : EReal :=
  Ideal.ofBits .f32 0x00000000#32
    + Ideal.exp (Ideal.div (-d) (Ideal.ofBits .f32 0x3E800000#32))
    + Ideal.exp (Ideal.div (-d) (Ideal.ofBits .f32 0x3F000000#32))
    + Ideal.exp (Ideal.div (-d) (Ideal.ofBits .f32 0x3F800000#32))
    + Ideal.exp (Ideal.div (-d) (Ideal.ofBits .f32 0x40000000#32))
    + Ideal.exp (Ideal.div (-d) (Ideal.ofBits .f32 0x40800000#32))

/-- Over the reals: squaring `exp (-r/4)` four times gives the five exponentials, and the two orders of
    addition agree. -/
theorem real_law (r : ℝ) :
    Real.exp (-(1 / 4) * r)
      + Real.exp (-(1 / 4) * r) * Real.exp (-(1 / 4) * r)
      + Real.exp (-(1 / 4) * r) * Real.exp (-(1 / 4) * r) * (Real.exp (-(1 / 4) * r) * Real.exp (-(1 / 4) * r))
      + Real.exp (-(1 / 4) * r) * Real.exp (-(1 / 4) * r) * (Real.exp (-(1 / 4) * r) * Real.exp (-(1 / 4) * r))
          * (Real.exp (-(1 / 4) * r) * Real.exp (-(1 / 4) * r) * (Real.exp (-(1 / 4) * r) * Real.exp (-(1 / 4) * r)))
      + Real.exp (-(1 / 4) * r) * Real.exp (-(1 / 4) * r) * (Real.exp (-(1 / 4) * r) * Real.exp (-(1 / 4) * r))
          * (Real.exp (-(1 / 4) * r) * Real.exp (-(1 / 4) * r) * (Real.exp (-(1 / 4) * r) * Real.exp (-(1 / 4) * r)))
          * (Real.exp (-(1 / 4) * r) * Real.exp (-(1 / 4) * r) * (Real.exp (-(1 / 4) * r) * Real.exp (-(1 / 4) * r))
              * (Real.exp (-(1 / 4) * r) * Real.exp (-(1 / 4) * r) * (Real.exp (-(1 / 4) * r) * Real.exp (-(1 / 4) * r))))
    = 0 + Real.exp (-r * (1 / (1 / 4))) + Real.exp (-r * (1 / (1 / 2))) + Real.exp (-r * (1 / 1))
        + Real.exp (-r * (1 / 2)) + Real.exp (-r * (1 / 4)) := by
  have sq : ∀ x : ℝ, Real.exp x * Real.exp x = Real.exp (2 * x) := fun x => by
    rw [← Real.exp_add, two_mul]
  rw [sq, sq, sq, sq]
  rw [show 2 * (2 * (2 * (2 * (-(1 / 4) * r)))) = -r * (1 / (1 / 4)) by ring,
    show 2 * (2 * (2 * (-(1 / 4) * r))) = -r * (1 / (1 / 2)) by ring,
    show 2 * (2 * (-(1 / 4) * r)) = -r * (1 / 1) by ring,
    show 2 * (-(1 / 4) * r) = -r * (1 / 2) by ring,
    show -(1 / 4) * r = -r * (1 / 4) by ring]
  ring

/-- THE LAW: the two sums are one function on the extended reals. -/
theorem bySquaring_eq_termByTerm (d : EReal) : bySquaring d = termByTerm d := by
  unfold bySquaring termByTerm
  rw [ofBits_neg_quarter, ofBits_quarter, ofBits_half, ofBits_one, ofBits_two, ofBits_four, ofBits_zero,
    Ideal.div_coe (by norm_num : (1 / 4 : ℝ) ≠ 0), Ideal.div_coe (by norm_num : (1 / 2 : ℝ) ≠ 0),
    Ideal.div_coe (by norm_num : (1 : ℝ) ≠ 0), Ideal.div_coe (by norm_num : (2 : ℝ) ≠ 0),
    Ideal.div_coe (by norm_num : (4 : ℝ) ≠ 0)]
  induction d using EReal.rec with
  | bot =>
    rw [EReal.coe_mul_bot_of_neg (by norm_num : (-(1 / 4) : ℝ) < 0), EReal.neg_bot,
      EReal.top_mul_coe_of_pos (by norm_num : (0 : ℝ) < 1 / (1 / 4)),
      EReal.top_mul_coe_of_pos (by norm_num : (0 : ℝ) < 1 / (1 / 2)),
      EReal.top_mul_coe_of_pos (by norm_num : (0 : ℝ) < 1 / 1),
      EReal.top_mul_coe_of_pos (by norm_num : (0 : ℝ) < 1 / 2),
      EReal.top_mul_coe_of_pos (by norm_num : (0 : ℝ) < 1 / 4)]
    simp only [Ideal.exp_top, EReal.top_mul_top, EReal.top_add_top, zero_add]
  | top =>
    rw [EReal.coe_mul_top_of_neg (by norm_num : (-(1 / 4) : ℝ) < 0), EReal.neg_top,
      EReal.bot_mul_coe_of_pos (by norm_num : (0 : ℝ) < 1 / (1 / 4)),
      EReal.bot_mul_coe_of_pos (by norm_num : (0 : ℝ) < 1 / (1 / 2)),
      EReal.bot_mul_coe_of_pos (by norm_num : (0 : ℝ) < 1 / 1),
      EReal.bot_mul_coe_of_pos (by norm_num : (0 : ℝ) < 1 / 2),
      EReal.bot_mul_coe_of_pos (by norm_num : (0 : ℝ) < 1 / 4)]
    simp only [Ideal.exp_bot, mul_zero, add_zero]
  | coe r =>
    simp only [← EReal.coe_neg, ← EReal.coe_mul, Ideal.exp_coe, ← EReal.coe_add]
    rw [← EReal.coe_zero]
    simp only [← EReal.coe_add]
    exact congrArg _ (real_law r)

end Cert.GaussSum

end
-- ==== Proof.Spec.lean ====
/-
  THE SPECIFICATION: what both programs compute, as one function of the two point clouds.

  `X` and `Y` are 4096 points each in dimension 1024 (one point per row). For the pair `(p, q)`:
  * `rowSq X p = 0 + ∑ₖ X[p,k]²` is the squared norm of point `p` (the zero is the sum's initial value);
  * `inner X Y p q = ∑ₖ X[p,k] · Y[q,k]` is the inner product of the two points;
  * `sqDist X Y p q = max (‖x‖² + ‖y‖² − 2 ⟨x, y⟩) 0` is their squared distance by the Gram identity, clamped at zero;
  * `gaussSum X Y (p, q)` is the five-bandwidth Gaussian sum of that distance (GaussLaw's `bySquaring`,
    equal to `termByTerm`).
  Everything is read on the extended reals, where each float operation is the exact one.
-/
import Idealize.ShloMosaic.Lib.ValueIdx
import proofs.«119085_j67405216743453_2_alg».proof.Proof.GaussLaw

noncomputable section

namespace Cert.GaussSum

open Idealize.ShloMosaic Idealize.ShloMosaic.ValueIdx

/-- A cloud of 4096 points in dimension 1024, one per row. -/
abbrev Cloud := (⟨2, ![4096, 1024]⟩ : Shape).Idx → EReal

/-- The squared norm of point `p`: the zero the sum starts from, plus the sum of the squares of its coordinates. -/
def rowSq (X : Cloud) (p : Fin 4096) : EReal :=
  Ideal.ofBits .f32 0x00000000#32 + ∑ k : Fin 1024, X (ix2 p k) * X (ix2 p k)

/-- The inner product of point `p` of `X` with point `q` of `Y`. -/
def inner (X Y : Cloud) (p q : Fin 4096) : EReal :=
  ∑ k : Fin 1024, X (ix2 p k) * Y (ix2 q k)

/-- The squared distance of the two points by the Gram identity `‖x‖² + ‖y‖² − 2⟨x, y⟩`, clamped at zero. -/
def sqDist (X Y : Cloud) (p q : Fin 4096) : EReal :=
  max (rowSq X p + rowSq Y q - Ideal.ofBits .f32 0x40000000#32 * inner X Y p q) (Ideal.ofBits .f32 0x00000000#32)

/-- The multi-scale Gaussian kernel matrix: entry `(p, q)` is the five-bandwidth Gaussian sum of the squared
    distance between point `p` of `X` and point `q` of `Y`. -/
def gaussSum (X Y : Cloud) : (⟨2, ![4096, 4096]⟩ : Shape).Idx → EReal :=
  fun i => bySquaring (sqDist X Y (i 0) (i 1))

end Cert.GaussSum

end
-- ==== Proof.Payload.lean ====
/-
  THE BODY'S ARITHMETIC AT AN INDEX.

  At one grid point the body holds a block of 1024 points of `X` (rows), a block of 512 points of `Y` (rows), the
  1024 squared norms of the former as a column and the 512 squared norms of the latter as a row. It multiplies the
  `X` block with the transposed `Y` block — entry `(p, q)` of that product is the inner product of row `p` with
  row `q` —, broadcasts the column and the row of norms over the 1024 × 512 tile, forms
  `‖x‖² + ‖y‖² − 2⟨x, y⟩`, clamps it at zero and sums the five Gaussians by repeated squaring. Everything but the
  matrix product and the two broadcasts is pointwise, so the payload is, by unfolding, `bySquaring` of the clamped
  combination of three tiles; each of the three is then read at `(p, q)`.
-/
import proofs.«119085_j67405216743453_2_alg».proof.Proof.Gen.KernelIdeal.Skeleton
import proofs.«119085_j67405216743453_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.GaussSum.Body

open Cert.KernelIdeal Cert.KernelIdeal.Gen Idealize.ShloMosaic Idealize.ShloMosaic.ValueIdx

/-! ## A column broadcast along its unit axis -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three tiles that are not pointwise -/

/-- The tile of inner products: the block of `X` times the transposed block of `Y`, onto a zero accumulator. -/
def innerTile (x0 : Vec Ideal S1024x1024 .bf16) (x1 : Vec Ideal S512x1024 .bf16) : FVec Ideal S1024x512 .f32 :=
  matmul dot_S1024x1024_S1024x512_S1024x512_1_0_0_1_n_n none
    (shapeCast S1024x1024 x0 shapeCasts_S1024x1024_S1024x1024 : FVec Ideal S1024x1024 .bf16)
    (transpose S1024x512 [1, 0] (shapeCast S512x1024 x1 shapeCasts_S512x1024_S512x1024 : FVec Ideal S512x1024 .bf16)
      transposes_S512x1024_p1_0_S1024x512 : FVec Ideal S1024x512 .bf16)
    (constant S1024x512 .f32 0x00000000#32)

/-- The column of squared norms of the `X` block, broadcast over the tile. -/
def rowNormTile (x2 : Vec Ideal S1024x1 .f32) : FVec Ideal S1024x512 .f32 :=
  broadcastTo S1024x512 (shapeCast S1024x1 x2 shapeCasts_S1024x1_S1024x1) broadcasts_S1024x1_S1024x512

/-- The row of squared norms of the `Y` block, broadcast over the tile. -/
def colNormTile (x3 : Vec Ideal S1x512 .f32) : FVec Ideal S1024x512 .f32 :=
  broadcastTo S1024x512 (shapeCast S1x512 x3 shapeCasts_S1x512_S1x512) broadcasts_S1x512_S1024x512

/-- The payload is pointwise over the three tiles: the Gaussian sum by squaring of `max (‖x‖² + ‖y‖² − 2⟨x, y⟩) 0`. -/
theorem payload_pointwise (x0 : Vec Ideal S1024x1024 .bf16) (x1 : Vec Ideal S512x1024 .bf16) (x2 : Vec Ideal S1024x1 .f32)
    (x3 : Vec Ideal S1x512 .f32) (j : S1024x512.Idx) :
    k0_pay1 (F := Ideal) x0 x1 x2 x3 j
      = bySquaring (max (rowNormTile x2 j + colNormTile x3 j - Ideal.ofBits .f32 0x40000000#32 * innerTile x0 x1 j)
          (Ideal.ofBits .f32 0x00000000#32)) := rfl

/-! ## The matrix product at an entry -/

theorem lhs_row (i : S1024x512.Idx) (s : dot_S1024x1024_S1024x512_S1024x512_1_0_0_1_n_n.contr.Idx) :
    (dot_S1024x1024_S1024x512_S1024x512_1_0_0_1_n_n.lhsIdx i s 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl

theorem lhs_contracted (i : S1024x512.Idx) (s : dot_S1024x1024_S1024x512_S1024x512_1_0_0_1_n_n.contr.Idx) :
    (dot_S1024x1024_S1024x512_S1024x512_1_0_0_1_n_n.lhsIdx i s 1).val = (s ⟨0, by decide⟩).val :=
  dot_S1024x1024_S1024x512_S1024x512_1_0_0_1_n_n.lhsIdx_val_of_single rfl i s

theorem rhs_contracted (i : S1024x512.Idx) (s : dot_S1024x1024_S1024x512_S1024x512_1_0_0_1_n_n.contr.Idx) :
    (dot_S1024x1024_S1024x512_S1024x512_1_0_0_1_n_n.rhsIdx i s 0).val = (s ⟨0, by decide⟩).val :=
  dot_S1024x1024_S1024x512_S1024x512_1_0_0_1_n_n.rhsIdx_val_of_single rfl i s

theorem rhs_col (i : S1024x512.Idx) (s : dot_S1024x1024_S1024x512_S1024x512_1_0_0_1_n_n.contr.Idx) :
    (dot_S1024x1024_S1024x512_S1024x512_1_0_0_1_n_n.rhsIdx i s 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- Entry `(p, q)` of the tile of inner products is the inner product of row `p` of the `X` block with row `q`
    of the `Y` block: the contraction runs over the 1024 coordinates, and the transpose turns `Y`'s rows into
    the product's columns. -/
theorem innerTile_apply (x0 : Vec Ideal S1024x1024 .bf16) (x1 : Vec Ideal S512x1024 .bf16) (p : Fin 1024) (q : Fin 512) :
    innerTile x0 x1 (ix2 p q) = ∑ k : Fin 1024, x0 (ix2 p k) * x1 (ix2 q k) := by
  unfold innerTile
  rw [shapeCast_self, shapeCast_self]
  simp only [matmul]
  rw [Ideal.matmul_constant_zero_apply,
    ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q)
      ((contrEquiv1 dot_S1024x1024_S1024x512_S1024x512_1_0_0_1_n_n 1024 rfl rfl).symm k) = ix2 p k :=
    funext fun a => Fin.ext (by
      match a with
      | ⟨0, _⟩ => exact lhs_row _ _
      | ⟨1, _⟩ => exact (lhs_contracted _ _).trans hk)
  have er : dot_S1024x1024_S1024x512_S1024x512_1_0_0_1_n_n.rhsIdx (ix2 p q)
      ((contrEquiv1 dot_S1024x1024_S1024x512_S1024x512_1_0_0_1_n_n 1024 rfl rfl).symm k) = ix2 k q :=
    funext fun a => Fin.ext (by
      match a with
      | ⟨0, _⟩ => exact (rhs_contracted _ _).trans hk
      | ⟨1, _⟩ => exact rhs_col _ _)
  rw [el, er, transpose_ix2_apply]

/-! ## The two broadcasts at an entry -/

theorem rowNormTile_apply (x2 : Vec Ideal S1024x1 .f32) (p : Fin 1024) (q : Fin 512) :
    rowNormTile x2 (ix2 p q) = x2 (ix2 p (0 : Fin 1)) := by
  unfold rowNormTile
  rw [shapeCast_self]
  exact broadcastTo_a1_ab_apply x2 _ p q

theorem colNormTile_apply (x3 : Vec Ideal S1x512 .f32) (p : Fin 1024) (q : Fin 512) :
    colNormTile x3 (ix2 p q) = x3 (ix2 (0 : Fin 1) q) := by
  unfold colNormTile
  rw [shapeCast_self]
  exact broadcastTo_1b_ab_apply x3 _ p q

/-! ## The payload at an entry -/

/-- Entry `(p, q)` of what the body stores: the Gaussian sum of the clamped Gram combination of norm `p` of the
    column, norm `q` of the row and the inner product of the two rows. -/
theorem payload_apply (x0 : Vec Ideal S1024x1024 .bf16) (x1 : Vec Ideal S512x1024 .bf16) (x2 : Vec Ideal S1024x1 .f32)
    (x3 : Vec Ideal S1x512 .f32) (p : Fin 1024) (q : Fin 512) :
    k0_pay1 (F := Ideal) x0 x1 x2 x3 (ix2 p q)
      = bySquaring (max (x2 (ix2 p (0 : Fin 1)) + x3 (ix2 (0 : Fin 1) q)
          - Ideal.ofBits .f32 0x40000000#32 * ∑ k : Fin 1024, x0 (ix2 p k) * x1 (ix2 q k))
          (Ideal.ofBits .f32 0x00000000#32)) := by
  rw [payload_pointwise, rowNormTile_apply, colNormTile_apply, innerTile_apply]

end Cert.GaussSum.Body

end
-- ==== Proof.HostArrays.lean ====
/-
  THE ARRAYS THE KERNEL'S WINDOWS READ, as functions of the two point clouds.

  Before the kernel is launched the host computes four arrays: the two clouds converted to the narrower float
  format (the identity on the extended reals), the squared norms of `X`'s points as a 4096 × 1 column and the
  squared norms of `Y`'s points as a 1 × 4096 row — each norm the zero initial value plus the sum of the squares
  of the point's 1024 coordinates. Read at an entry: the converted clouds are the clouds, entry `(r, 0)` of the
  column is `rowSq X r` and entry `(0, r)` of the row is `rowSq Y r`.
-/
import proofs.«119085_j67405216743453_2_alg».proof.Proof.Gen.KernelIdeal.Frame
import proofs.«119085_j67405216743453_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.GaussSum.Host

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The host's row sums of squares: entry `r` is the squared norm of point `r`. -/
theorem rowSums_apply (Z : Cloud) (r : Fin 4096) :
    Host.reduceAdd (F := Ideal) (mulf Z Z) (constant S_ .f32 0x00000000#32) reducesTo_S4096x1024_S4096_d1 h_S_ (ix1 r)
      = rowSq Z r := by
  simp only [Host.reduceAdd, Ideal.hostReduceAdd_def]
  rw [Ideal.hostReduceAdd_single reducesTo_S4096x1024_S4096_d1 (by decide)]
  unfold rowSq
  refine congrArg (_ + ·) (Finset.sum_congr rfl fun k _ => ?_)
  exact congrArg (fun j => Z j * Z j) (funext fun a => Fin.ext (by match a with | ⟨0, _⟩ => rfl | ⟨1, _⟩ => rfl))

/-- The converted first cloud, as the region finds it, is the first cloud. -/
theorem cloudX (c : Dev nD) :
    (V m c main_v6 : S4096x1024.Idx → EReal) = m ((c : Thread nD τ).loc main_arg0) := by
  dsimp only [Gen.V, Gen.hostOps0]; after_results; rfl

/-- The converted second cloud, as the region finds it, is the second cloud. -/
theorem cloudY (c : Dev nD) :
    (V m c main_v7 : S4096x1024.Idx → EReal) = m ((c : Thread nD τ).loc main_arg1) := by
  dsimp only [Gen.V, Gen.hostOps0]; after_results; rfl

/-- The column of squared norms of the first cloud, as the region finds it. -/
theorem normsX (c : Dev nD) :
    (V m c main_v2 : S4096x1.Idx → EReal)
      = broadcastInDim S4096x1 ![0] bcast_S4096_S4096x1_0
          (Host.reduceAdd (F := Ideal) (mulf (m ((c : Thread nD τ).loc main_arg0)) (m ((c : Thread nD τ).loc main_arg0)))
            (constant S_ .f32 0x00000000#32) reducesTo_S4096x1024_S4096_d1 h_S_) := by
  dsimp only [Gen.V, Gen.hostOps0]; after_results

/-- The row of squared norms of the second cloud, as the region finds it. -/
theorem normsY (c : Dev nD) :
    (V m c main_v5 : S1x4096.Idx → EReal)
      = broadcastInDim S1x4096 ![1] bcast_S4096_S1x4096_1
          (Host.reduceAdd (F := Ideal) (mulf (m ((c : Thread nD τ).loc main_arg1)) (m ((c : Thread nD τ).loc main_arg1)))
            (constant S_ .f32 0x00000000#32) reducesTo_S4096x1024_S4096_d1 h_S_) := by
  dsimp only [Gen.V, Gen.hostOps0]; after_results

/-- Entry `(r, 0)` of the column is the squared norm of point `r` of the first cloud. -/
theorem normsX_apply (c : Dev nD) (r : Fin 4096) :
    (V m c main_v2 : S4096x1.Idx → EReal) (ix2 r (0 : Fin 1)) = rowSq (m ((c : Thread nD τ).loc main_arg0)) r := by
  rw [normsX]
  rw [broadcastInDim_apply _ bcast_S4096_S4096x1_0 _ (ix2 r (0 : Fin 1)) (ix1 r) (fun a => match a with
    | ⟨0, _⟩ => by show r.val = if (4096 : Nat) = 1 then 0 else r.val; rw [if_neg (by decide)])]
  exact rowSums_apply _ r

/-- Entry `(0, r)` of the row is the squared norm of point `r` of the second cloud. -/
theorem normsY_apply (c : Dev nD) (r : Fin 4096) :
    (V m c main_v5 : S1x4096.Idx → EReal) (ix2 (0 : Fin 1) r) = rowSq (m ((c : Thread nD τ).loc main_arg1)) r := by
  rw [normsY]
  rw [broadcastInDim_apply _ bcast_S4096_S1x4096_1 _ (ix2 (0 : Fin 1) r) (ix1 r) (fun a => match a with
    | ⟨0, _⟩ => by show r.val = if (4096 : Nat) = 1 then 0 else r.val; rw [if_neg (by decide)])]
  exact rowSums_apply _ r

end Cert.GaussSum.Host

end
-- ==== Proof.Tiles.lean ====
/-
  FROM TILES TO THE WHOLE MATRIX.

  The 4096 × 4096 result is cut into a 4 × 8 grid of tiles of 1024 × 512 entries. At grid point `(a, b)` the
  kernel reads rows `1024·a …` of the first cloud (and of its column of norms) and rows `512·b …` of the second
  cloud (and of its row of norms), and writes tile `(a, b)` of the result. So entry `(p, q)` of that tile is
  computed from point `1024·a + p` of the first cloud and point `512·b + q` of the second: it is entry
  `(1024·a + p, 512·b + q)` of `gaussSum`. Every entry of the matrix lies in exactly one tile — the one at
  `(row / 1024, column / 512)` —, so after the last grid point the whole array is `gaussSum` of the two clouds.
-/
import proofs.«119085_j67405216743453_2_alg».proof.Proof.Gen.KernelIdeal.Value
import proofs.«119085_j67405216743453_2_alg».proof.Proof.Payload
import proofs.«119085_j67405216743453_2_alg».proof.Proof.HostArrays

noncomputable section

namespace Cert.GaussSum.Tiles

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Which block each window holds at a grid point -/

/-- The printed index maps, decided over the 32 grid points: the first cloud and its norms move with the tile's row
    index, the second cloud and its norms with the tile's column index, and the tile indices stay in the 4 × 8 grid. -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 7 :=
  (by decide +kernel : ∀ t : Fin grid0.N, _)

/-- Every tile of the 4 × 8 grid is some grid point's. -/
theorem index_onto : ∀ (a : Fin 4) (b : Fin 8), ∃ t : Fin cfg0.N, win0_4.index t = ![a.val, b.val] :=
  (by decide +kernel : ∀ (a : Fin 4) (b : Fin 8), ∃ t : Fin grid0.N, win0_4.index t = ![a.val, b.val])

/-! ## The four input blocks at a grid point, read at an entry -/

/-- Row `p` of the first cloud's block at point `t` is point `r = 1024 · (tile row) + p` of the first cloud. -/
theorem blockX_apply (c : Dev nD) (t : Fin cfg0.N) (p k : Fin 1024) (r : Fin 4096)
    (hr : r.val = win0_4.index t (0 : Fin 2) * 1024 + p.val) :
    (iblk m c 0 t : Vec Ideal S1024x1024 .bf16) (ix2 p k) = (m ((c : Thread nD τ).loc main_arg0) : Cloud) (ix2 r k) := by
  obtain ⟨e00, e01, -⟩ := index_facts t
  unfold iblk
  rw [View.read_apply]
  refine Eq.trans ?_ (congrFun (Host.cloudX m c) (ix2 r k))
  show (V m c main_v6 : S4096x1024.Idx → EReal) _ = _
  refine congrArg (V m c main_v6 : S4096x1024.Idx → EReal) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- Row `q` of the second cloud's block at point `t` is point `r = 512 · (tile column) + q` of the second cloud. -/
theorem blockY_apply (c : Dev nD) (t : Fin cfg0.N) (q : Fin 512) (k : Fin 1024) (r : Fin 4096)
    (hr : r.val = win0_4.index t (1 : Fin 2) * 512 + q.val) :
    (iblk m c 1 t : Vec Ideal S512x1024 .bf16) (ix2 q k) = (m ((c : Thread nD τ).loc main_arg1) : Cloud) (ix2 r k) := by
  obtain ⟨-, -, e10, e11, -⟩ := index_facts t
  unfold iblk
  rw [View.read_apply]
  refine Eq.trans ?_ (congrFun (Host.cloudY m c) (ix2 r k))
  show (V m c main_v7 : S4096x1024.Idx → EReal) _ = _
  refine congrArg (V m c main_v7 : S4096x1024.Idx → EReal) (funext fun a => Fin.ext ?_)
  match a with
  | ⟨0, _⟩ => show win0_1.index t (0 : Fin 2) * 512 + 1 * q.val = r.val; omega
  | ⟨1, _⟩ => show win0_1.index t (1 : Fin 2) * 1024 + 1 * k.val = k.val; omega

/-- Entry `p` of the block of the first cloud's norms at point `t` is the squared norm of point `r`. -/
theorem blockNormX_apply (c : Dev nD) (t : Fin cfg0.N) (p : Fin 1024) (r : Fin 4096)
    (hr : r.val = win0_4.index t (0 : Fin 2) * 1024 + p.val) :
    (iblk m c 2 t : Vec Ideal S1024x1 .f32) (ix2 p (0 : Fin 1)) = rowSq (m ((c : Thread nD τ).loc main_arg0)) r := by
  obtain ⟨-, -, -, -, e20, e21, -⟩ := index_facts t
  unfold iblk
  rw [View.read_apply]
  refine Eq.trans ?_ (Host.normsX_apply m c r)
  show (V m c main_v2 : S4096x1.Idx → EReal) _ = _
  refine congrArg (V m c main_v2 : S4096x1.Idx → EReal) (funext fun a => Fin.ext ?_)
  match a with
  | ⟨0, _⟩ => show win0_2.index t (0 : Fin 2) * 1024 + 1 * p.val = r.val; omega
  | ⟨1, _⟩ => show win0_2.index t (1 : Fin 2) * 1 + 1 * 0 = 0; omega

/-- Entry `q` of the block of the second cloud's norms at point `t` is the squared norm of point `r`. -/
theorem blockNormY_apply (c : Dev nD) (t : Fin cfg0.N) (q : Fin 512) (r : Fin 4096)
    (hr : r.val = win0_4.index t (1 : Fin 2) * 512 + q.val) :
    (iblk m c 3 t : Vec Ideal S1x512 .f32) (ix2 (0 : Fin 1) q) = rowSq (m ((c : Thread nD τ).loc main_arg1)) r := by
  obtain ⟨-, -, -, -, -, -, e30, e31, -⟩ := index_facts t
  unfold iblk
  rw [View.read_apply]
  refine Eq.trans ?_ (Host.normsY_apply m c r)
  show (V m c main_v5 : S1x4096.Idx → EReal) _ = _
  refine congrArg (V m c main_v5 : S1x4096.Idx → EReal) (funext fun a => Fin.ext ?_)
  match a with
  | ⟨0, _⟩ => show win0_3.index t (0 : Fin 2) * 1 + 1 * 0 = 0; omega
  | ⟨1, _⟩ => show win0_3.index t (1 : Fin 2) * 512 + 1 * q.val = r.val; omega

/-! ## The tile a grid point writes -/

/-- The Gaussian sum of the clamped Gram combination depends only on the two norms and the inner product. -/
theorem gauss_congr {a a' b b' s s' : EReal} (ha : a = a') (hb : b = b') (hs : s = s') :
    bySquaring (max (a + b - Ideal.ofBits .f32 0x40000000#32 * s) (Ideal.ofBits .f32 0x00000000#32))
      = bySquaring (max (a' + b' - Ideal.ofBits .f32 0x40000000#32 * s') (Ideal.ofBits .f32 0x00000000#32)) := by
  subst ha hb hs; rfl

/-- If row `p` of a block of 1024 rows is point `r` of a cloud, and row `q` of a block of 512 rows is point `s` of
    another, the inner product of the two rows is the inner product of the two points. -/
theorem inner_of_rows (B0 : Vec Ideal S1024x1024 .bf16) (B1 : Vec Ideal S512x1024 .bf16) (X Y : Cloud)
    (p : Fin 1024) (q : Fin 512) (r s : Fin 4096)
    (hX : ∀ k : Fin 1024, B0 (ix2 p k) = X (ix2 r k)) (hY : ∀ k : Fin 1024, B1 (ix2 q k) = Y (ix2 s k)) :
    (∑ k : Fin 1024, B0 (ix2 p k) * B1 (ix2 q k)) = inner X Y r s :=
  Finset.sum_congr rfl fun k _ => by rw [hX k, hY k]

/-- Entry `(p, q)` of the tile computed at point `t` is entry `(r, s)` of `gaussSum`, for `r`, `s` the tile's
    offsets plus `p`, `q`. -/
theorem tile_entry (c : Dev nD) (t : Fin cfg0.N) (p : Fin 1024) (q : Fin 512) (r s : Fin 4096)
    (hr : r.val = win0_4.index t (0 : Fin 2) * 1024 + p.val) (hs : s.val = win0_4.index t (1 : Fin 2) * 512 + q.val) :
    k0_pay1 (F := Ideal) (iblk m c 0 t) (iblk m c 1 t) (iblk m c 2 t) (iblk m c 3 t) (ix2 p q)
      = gaussSum (m ((c : Thread nD τ).loc main_arg0)) (m ((c : Thread nD τ).loc main_arg1)) (ix2 r s) :=
  (Body.payload_apply (iblk m c 0 t) (iblk m c 1 t) (iblk m c 2 t) (iblk m c 3 t) p q).trans
    (gauss_congr (blockNormX_apply m c t p r hr) (blockNormY_apply m c t q s hs)
      (inner_of_rows (iblk m c 0 t) (iblk m c 1 t) (m ((c : Thread nD τ).loc main_arg0)) (m ((c : Thread nD τ).loc main_arg1))
        p q r s (fun k => blockX_apply m c t p k r hr) (fun k => blockY_apply m c t q k s hs)))

/-- The same for indices not yet split into coordinates. -/
theorem tile_apply (c : Dev nD) (t : Fin cfg0.N) (y : S1024x512.Idx) (i : S4096x4096.Idx)
    (h0 : (i 0).val = win0_4.index t (0 : Fin 2) * 1024 + (y 0).val)
    (h1 : (i 1).val = win0_4.index t (1 : Fin 2) * 512 + (y 1).val) :
    k0_pay1 (F := Ideal) (iblk m c 0 t) (iblk m c 1 t) (iblk m c 2 t) (iblk m c 3 t) y
      = gaussSum (m ((c : Thread nD τ).loc main_arg0)) (m ((c : Thread nD τ).loc main_arg1)) i := by
  obtain ⟨p, q, rfl⟩ : ∃ (p : Fin 1024) (q : Fin 512), y = ix2 p q := ⟨y 0, y 1, eq_ix2 y⟩
  obtain ⟨r, s, rfl⟩ : ∃ (r s : Fin 4096), i = ix2 r s := ⟨i 0, i 1, eq_ix2 i⟩
  exact tile_entry m c t p q r s h0 h1

/-- WHAT POINT `t` WRITES BACK is tile `t` of `gaussSum` of the two clouds. -/
theorem flushed_eq (c : Dev nD) (t : Fin cfg0.N) :
    (dats m 0 c).flushed 4 t
      = ((cfg0.win 4).blk t).view.read (Elt Ideal)
          (gaussSum (m ((c : Thread nD τ).loc main_arg0)) (m ((c : Thread nD τ).loc main_arg1))) := by
  rw [Cert.KernelIdeal.Value.flushed4]
  unfold out0_4
  rw [View.canon_unit_zero zero_offsets]
  simp only [View.ld_unit_zero (S := S1024x1024) zero_offsets, View.ld_unit_zero (S := S512x1024) zero_offsets,
    View.ld_unit_zero (S := S1024x1) zero_offsets, View.ld_unit_zero (S := S1x512) zero_offsets]
  funext j
  rw [View.read_apply]
  refine tile_apply m c t _ _ ?_ ?_
  · show win0_4.index t (0 : Fin 2) * 1024 + 1 * (j 0).val = win0_4.index t (0 : Fin 2) * 1024 + (j 0).val; omega
  · show win0_4.index t (1 : Fin 2) * 512 + 1 * (j 1).val = win0_4.index t (1 : Fin 2) * 512 + (j 1).val; omega

/-! ## The tiles cover the matrix -/

/-- An entry of the matrix is in point `t`'s tile iff each coordinate is in the tile's range on its axis. -/
theorem mem_tile (t : Fin cfg0.N) (i : S4096x4096.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v8).slice (win0_4.rect t)).set ↔ _
  rw [View.set_slice_whole, Rect.mem_set_unit]
  exact Iff.rfl

/-- Every entry lies in the tile at `(row / 1024, column / 512)`, and every grid point writes its tile back. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := index_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_tile]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-! ## The whole array, and the run -/

/-- THE ARRAY after the run is `gaussSum` of the two clouds. -/
theorem final (c : Dev nD) :
    (dats m 0 c).arrAt 4 cfg0.N
      = gaussSum (m ((c : Thread nD τ).loc main_arg0)) (m ((c : Thread nD τ).loc main_arg1)) :=
  (dats m 0 c).arrAt_eq_of_cover 4 _ (fun t _ => flushed_eq m c t) covered

/-- The kernel's run, read: the result array ends at `gaussSum` of the two clouds, which end unchanged. -/
theorem run : θ_run defs (onTc (τ := τ) (main (F := Ideal))) ⟨m, fun _ => 0, ρ⟩ fun r => ∀ c : Dev nD,
      r.2.mem ((c : Thread nD τ).loc main_v8)
        = gaussSum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.GaussSum.Tiles

end
-- ==== Proof.RefIsSpec.lean ====
/-
  THE REFERENCE IS THE SPECIFICATION.

  Read one operation at a time, the reference forms `‖x‖²` and `‖y‖²` by row sums of squares, broadcasts them
  to the 4096 × 4096 grid of pairs, subtracts twice the matrix product `X Yᵀ`, clamps at zero, and then
  adds `exp (-d / (2a))` for the five bandwidths onto a zero matrix. Entry `(p, q)` of the clamped matrix
  is `sqDist X Y p q`; the rest is `termByTerm` of it, which is `bySquaring` of it by the scalar law.
-/
import proofs.«119085_j67405216743453_2_alg».proof.Proof.Gen.ReferenceIdeal.Read
import proofs.«119085_j67405216743453_2_alg».proof.Proof.Spec

noncomputable section

namespace Cert.GaussSum.Ref

open Cert.ReferenceIdeal Cert.ReferenceIdeal.Read Idealize.ShloMosaic Idealize.ShloMosaic.ValueIdx

/-- The clamped matrix of the reference at `(p, q)` is the squared distance of the two points. -/
theorem clamped_apply (X Y : Cloud) (i : S4096x4096.Idx) :
    val_main_v15 (F := Ideal) X Y i = sqDist X Y (i 0) (i 1) := by
  have eX : ∀ k : Fin 1024, idx_main_v1 (idx_main_v4 (idx_main_v6 i)) k = ix2 (i 0) k := fun k =>
    funext fun a => Fin.ext (by match a with | ⟨0, _⟩ => rfl | ⟨1, _⟩ => rfl)
  have eY : ∀ k : Fin 1024, idx_main_v3 (idx_main_v5 (idx_main_v7 i)) k = ix2 (i 1) k := fun k =>
    funext fun a => Fin.ext (by match a with | ⟨0, _⟩ => rfl | ⟨1, _⟩ => rfl)
  have eL : ∀ k : Fin 1024, lidx_main_v10 i k = ix2 (i 0) k := fun k =>
    funext fun a => Fin.ext (by match a with | ⟨0, _⟩ => rfl | ⟨1, _⟩ => rfl)
  have eR : ∀ k : Fin 1024, idx_main_v9 (ridx_main_v10 i k) = ix2 (i 1) k := fun k =>
    funext fun a => Fin.ext (by match a with | ⟨0, _⟩ => rfl | ⟨1, _⟩ => rfl)
  rw [val_main_v15_apply, val_main_v13_apply, val_main_v8_apply, val_main_v12_apply, val_main_v6_apply, val_main_v4_apply,
    val_main_v1_apply, val_main_v7_apply, val_main_v5_apply, val_main_v3_apply, val_main_v10_apply]
  simp only [val_main_v0_apply, val_main_v2_apply, val_main_v9_apply, eX, eY, eL, eR]
  rfl

/-- The reference's result is the multi-scale Gaussian kernel matrix. -/
theorem result_eq (X Y : Cloud) : val_main_v41 (F := Ideal) X Y = gaussSum X Y := by
  funext i
  show termByTerm (val_main_v15 (F := Ideal) X Y i) = _
  rw [clamped_apply, ← bySquaring_eq_termByTerm]
  rfl

end Cert.GaussSum.Ref

end
-- ==== Proof.lean ====
/-
  A multi-scale Gaussian kernel matrix, computed two ways.

  For two clouds `X`, `Y` of 4096 points in dimension 1024, entry `(p, q)` of the result is
  `∑ₐ exp (-d / (2a))` over the bandwidths `a = 1/8, 1/4, 1/2, 1, 2`, where
  `d = max (‖x_p‖² + ‖y_q‖² − 2⟨x_p, y_q⟩) 0` is the squared distance of the two points by the Gram identity.

  * The tiled program computes the squared norms once on the host, then, tile by tile of 1024 × 512 entries, one
    matrix product of a block of `X` with the transposed block of `Y`, the clamped Gram combination, ONE
    exponential `t = exp (-d/4)` and four squarings, `t + t² + t⁴ + t⁸ + t¹⁶`.
  * The reference forms the whole 4096 × 4096 matrix of distances from one matrix product `X Yᵀ` and adds the five
    exponentials `exp (-d / (2a))` onto a zero matrix.

  On the extended reals a change of float format is the identity and a matrix product is the exact sum of
  products, so both distance matrices are the same function `sqDist` of the clouds (Spec); the two ways of summing
  the Gaussians agree at every extended real, the infinities included (GaussLaw), so no finiteness of the inputs is
  used. The tiles partition the matrix (Tiles), which makes the tiled program's result array the function
  `gaussSum X Y` entry by entry; the reference's operations, read one at a time, give the same function (RefIsSpec).
  The idealized tiled program is the printed one read on the extended reals — no operation was rewritten —, so there
  is nothing to preserve.
-/
import proofs.«119085_j67405216743453_2_alg».proof.Defs
import proofs.«119085_j67405216743453_2_alg».proof.Proof.Gen.Kernel
import proofs.«119085_j67405216743453_2_alg».proof.Proof.Gen.Kernel.Skeleton
import proofs.«119085_j67405216743453_2_alg».proof.Proof.Gen.Kernel.Launch
import proofs.«119085_j67405216743453_2_alg».proof.Proof.Gen.Kernel.Points
import proofs.«119085_j67405216743453_2_alg».proof.Proof.Gen.Kernel.Frame
import proofs.«119085_j67405216743453_2_alg».proof.Proof.Gen.KernelIdeal
import proofs.«119085_j67405216743453_2_alg».proof.Proof.Gen.KernelIdeal.Skeleton
import proofs.«119085_j67405216743453_2_alg».proof.Proof.Gen.KernelIdeal.Launch
import proofs.«119085_j67405216743453_2_alg».proof.Proof.Gen.KernelIdeal.Points
import proofs.«119085_j67405216743453_2_alg».proof.Proof.Gen.KernelIdeal.Frame
import proofs.«119085_j67405216743453_2_alg».proof.Proof.Gen.ReferenceIdeal
import proofs.«119085_j67405216743453_2_alg».proof.Proof.Gen.Pre_finite_inputs
import proofs.«119085_j67405216743453_2_alg».proof.Proof.Gen.KernelIdeal.Value
import proofs.«119085_j67405216743453_2_alg».proof.Proof.Gen.ReferenceIdeal.Run
import proofs.«119085_j67405216743453_2_alg».proof.Proof.Gen.ReferenceIdeal.Read
import proofs.«119085_j67405216743453_2_alg».proof.Proof.Tiles
import proofs.«119085_j67405216743453_2_alg».proof.Proof.RefIsSpec
import Idealize.ShloMosaic.Adequacy
import Idealize.ShloMosaic.Init

noncomputable section

namespace Cert.Proof

open Idealize.ShloMosaic Idealize.ShloMosaic.TcCoe Idealize.SL.Sem

/-- The tiled program runs and leaves the two clouds as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves the two clouds as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From clouds that agree, both programs end with the multi-scale Gaussian kernel matrix `gaussSum X Y`: the tiled
    program tile by tile, the reference operation by operation. -/
theorem algebraic : Cert.algebraic_KernelIdeal_ReferenceIdeal := by
  intro m ρ m' ρ' _ hagree
  refine ⟨fun c => Cert.GaussSum.gaussSum
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.GaussSum.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2]
  exact Cert.GaussSum.Ref.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
